-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S1x256x1024 : Shape := ⟨3, ![1, 256, 1024]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4x2048x1024, .f32⟩
  | .local _ .vmem, ⟨0, _⟩ => ⟨S1x2048x1024, .f32⟩
  | .local _ .vmem, ⟨1, _⟩ => ⟨S1024x1024, .bf16⟩
  | .local _ .vmem, ⟨2, _⟩ => ⟨S1x1024, .f32⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | .local _ .vmem, ⟨9, _⟩ => ⟨S2048x1024, .bf16⟩
  | .local _ .vmem, ⟨10, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x256x1024 : 0 < S1x256x1024.numel
  shapeCasts_S1x256x1024_S256x1024 : S1x256x1024.ShapeCasts S256x1024
  broadcasts_S1x1024_S256x1024 : S1x1024.Broadcasts S256x1024
  reduces_S256x2048_S256 : S256x2048.Reduces [1] S256
  shapeCasts_S256_S256x1 : S256.ShapeCasts S256x1
  broadcasts_S256x1_S256x2048 : S256x1.Broadcasts S256x2048
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S2048x1024_S1024x1024_S2048x1024_1_0_0_1_n_n_wf : DotDims.WF S2048x1024 S1024x1024 S2048x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x1024.size a ≤ S1x2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S4x2048x1024.size a
  hwx0_7 : ∀ i : grid0.Coords, EltTy.bits .f32 = 32 ∨ (Rect.block (s := S4x2048x1024) S1x256x1024.size (cc0_transform_7 i) (hinb0_7 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Pieces.lean ====
/-
  What one grid point leaves behind, as values.

  A point (b, qi) of the 4 × 8 grid runs the body on the whole-batch block of x (2048 rows), the three transposed
  weight matrices and the three bias rows, and on two scratch matrices that survive from one point to the next.
  At the first point of a batch (qi = 0) the body first fills the scratch with the key and value projections of the
  whole batch block, then reads them back; at the other points it only reads them.  Either way the output block is the
  attention of the point's 256 query rows against the scratch's keys and values.  This file reads those facts off the
  stores the body's run found: each buffer is stored whole, by one store, so what it holds afterwards is that store's
  payload; a load of a buffer just stored whole reads the payload back; a load of an input reads the input.
-/
import proofs.«144892_j74096775790730_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.AttnValue

open Cert.KernelIdeal Cert.KernelIdeal.Gen

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-- The query rows of a point: rows 256·qi … 256·qi + 255 of the batch block, all columns. -/
abbrev qrows (i : grid0.Coords) (x0 : Vec F S1x2048x1024 .f32) : Vec F S1x256x1024 .f32 :=
  View.ld x0 (Rect.unit (s := S1x2048x1024) (k0_off1 i) S1x256x1024.size (k0_off1_inb i))

/-- The output block of a point, from its query rows, the query weights and bias, and the key and value matrices. -/
abbrev outBlock (i : grid0.Coords) (x0 : Vec F S1x2048x1024 .f32) (x1 : Vec F S1024x1024 .bf16) (x2 : Vec F S1x1024 .f32)
    (ks vs : Vec F S2048x1024 .bf16) : Vec F S1x256x1024 .f32 :=
  k0_pay1 (k0_pay5 (qrows i x0) x1 x2 ks vs)

/-- A later point of a batch: the output block is computed from the scratch as the point before left it. -/
theorem out_later (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S2048x1024 .bf16) (harg10 : arg10.IsWhole) (arg11 : Memref sig .tc .vmem S2048x1024 .bf16) (harg11 : arg11.IsWhole) (hc : ¬cond0_0 i) (x0 : Vec F S1x2048x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (xs0 xs1 : Vec F S2048x1024 .bf16) :
    out0_B_7 c i arg2 harg2 arg3 harg3 arg4 harg4 arg5 harg5 arg6 harg6 arg7 harg7 arg8 harg8 arg9 harg9 arg10 harg10 arg11 harg11 hc x0 x1 x2 x3 x4 x5 x6 xs0 xs1 = outBlock i x0 x1 x2 xs0 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc x0 x1 x2 x3 x4 x5 x6 xs0 xs1)]
  unfold kernelRun0_B
  dsimp only
  sl_unfold_words
  rw [View.canon_unit_zero zero3]
  simp only [View.readAt_eq_ld, harg2.read_unread, harg3.read_unread, harg4.read_unread, harg10.read_unread, harg11.read_unread,
    View.ld_unit_zero (S := S1024x1024) zero2, View.ld_unit_zero (S := S1x1024) zero2, View.ld_unit_zero (S := S2048x1024) zero2]
  rfl

/-- The first point of a batch leaves the key projection of the batch block in the first scratch, -/
theorem keys_first (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S2048x1024 .bf16) (harg10 : arg10.IsWhole) (arg11 : Memref sig .tc .vmem S2048x1024 .bf16) (harg11 : arg11.IsWhole) (hc : cond0_0 i) (x0 : Vec F S1x2048x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) :
    sout0_A_0 c i arg2 harg2 arg3 harg3 arg4 harg4 arg5 harg5 arg6 harg6 arg7 harg7 arg8 harg8 arg9 harg9 arg10 harg10 arg11 harg11 hc x0 x1 x2 x3 x4 x5 x6 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc x0 x1 x2 x3 x4 x5 x6)]
  unfold kernelRun0_A
  dsimp only
  sl_unfold_words
  rw [View.canon_unit_zero zero2]
  simp only [View.readAt_eq_ld, harg2.read_unread, harg5.read_unread, harg6.read_unread,
    View.ld_unit_zero (S := S1x2048x1024) zero3, View.ld_unit_zero (S := S1024x1024) zero2, View.ld_unit_zero (S := S1x1024) zero2]

/-- the value projection in the second, -/
theorem values_first (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S2048x1024 .bf16) (harg10 : arg10.IsWhole) (arg11 : Memref sig .tc .vmem S2048x1024 .bf16) (harg11 : arg11.IsWhole) (hc : cond0_0 i) (x0 : Vec F S1x2048x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) :
    sout0_A_1 c i arg2 harg2 arg3 harg3 arg4 harg4 arg5 harg5 arg6 harg6 arg7 harg7 arg8 harg8 arg9 harg9 arg10 harg10 arg11 harg11 hc x0 x1 x2 x3 x4 x5 x6 = k0_pay4 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc x0 x1 x2 x3 x4 x5 x6)]
  unfold kernelRun0_A
  dsimp only
  sl_unfold_words
  rw [View.canon_unit_zero zero2]
  simp only [View.readAt_eq_ld, harg2.read_unread, harg7.read_unread, harg8.read_unread,
    View.ld_unit_zero (S := S1x2048x1024) zero3, View.ld_unit_zero (S := S1024x1024) zero2, View.ld_unit_zero (S := S1x1024) zero2]

/-- and computes its output block from those two, read back. -/
theorem out_first (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S2048x1024 .bf16) (harg10 : arg10.IsWhole) (arg11 : Memref sig .tc .vmem S2048x1024 .bf16) (harg11 : arg11.IsWhole) (hc : cond0_0 i) (x0 : Vec F S1x2048x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) :
    out0_A_7 c i arg2 harg2 arg3 harg3 arg4 harg4 arg5 harg5 arg6 harg6 arg7 harg7 arg8 harg8 arg9 harg9 arg10 harg10 arg11 harg11 hc x0 x1 x2 x3 x4 x5 x6 = outBlock i x0 x1 x2 (k0_pay3 x0 x3 x4) (k0_pay4 x0 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc x0 x1 x2 x3 x4 x5 x6)]
  unfold kernelRun0_A
  dsimp only
  sl_unfold_words
  rw [View.canon_unit_zero zero3]
  simp only [View.readCov_unit_zero (S := S2048x1024) _ zero2, View.readAt_eq_ld, harg2.read_unread, harg3.read_unread,
    harg4.read_unread, harg5.read_unread, harg6.read_unread, harg7.read_unread, harg8.read_unread,
    View.ld_unit_zero (S := S1x2048x1024) zero3, View.ld_unit_zero (S := S1024x1024) zero2, View.ld_unit_zero (S := S1x1024) zero2]
  rfl

end Cert.KernelIdeal.AttnValue

end
-- ==== Proof.Blocks.lean ====
/-
  From grid points to arrays.

  The grid is 4 × 8: point t is batch t / 8, query tile t % 8.  The activations' window at t is the whole batch block
  t / 8 (all 2048 rows); the six weight and bias windows are their whole arrays at every point; the output window at t
  is rows 256·(t % 8) … of batch t / 8.  The two scratch matrices are filled at the first point of each batch and kept
  until the next batch: after EVERY point they hold the key and value projections of that point's batch block, by
  induction on the point.  So the output block of every point is the attention of its 256 query rows against the keys
  and values of its own batch.
-/
import proofs.«144892_j74096775790730_2_alg».proof.Proof.Pieces
import Idealize.ShloMosaic.Lib.ValueIdx
import Idealize.ShloMosaic.Lib.Pipeline.Value

noncomputable section

open Idealize.ShloMosaic Idealize.ShloMosaic.TcCoe Idealize.SL.Sem

namespace Cert.KernelIdeal.AttnValue

open Cert.KernelIdeal Cert.KernelIdeal.Gen

open Idealize.ShloMosaic.ValueIdx

variable {F : FTy → Type} [FloatOps F]
variable (m : (ℓ : Loc nD τ sig) → Buf (Elt F) ℓ)

/-! ## Where each window's block sits -/

theorem index0 : ∀ t : Fin cfg0.N, win0_0.index t 0 = t.val / 8 ∧ win0_0.index t 1 = 0 ∧ win0_0.index t 2 = 0 :=
  (by decide +kernel : ∀ t : Fin grid0.N, win0_0.index t 0 = t.val / 8 ∧ win0_0.index t 1 = 0 ∧ win0_0.index t 2 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = t.val / 8 ∧ win0_7.index t 1 = t.val % 8 ∧ win0_7.index t 2 = 0 :=
  (by decide +kernel : ∀ t : Fin grid0.N, win0_7.index t 0 = t.val / 8 ∧ win0_7.index t 1 = t.val % 8 ∧ win0_7.index t 2 = 0)

/-- The first query row of a point's tile. -/
theorem qoff : ∀ t : Fin cfg0.N, k0_off1 (grid0.coords t) 0 = 0 ∧ k0_off1 (grid0.coords t) 1 = 256 * (t.val % 8) ∧ k0_off1 (grid0.coords t) 2 = 0 :=
  (by decide +kernel : ∀ t : Fin grid0.N, k0_off1 (grid0.coords t) 0 = 0 ∧ k0_off1 (grid0.coords t) 1 = 256 * (t.val % 8) ∧ k0_off1 (grid0.coords t) 2 = 0)

/-- The batch of a point. -/
def batchOf (n : ℕ) (h : n < cfg0.N) : Fin 4 := ⟨n / 8, by have h' : n < 32 := lt_of_lt_of_eq h N_0; omega⟩

theorem batchOf_succ (n : ℕ) (h : n + 1 < cfg0.N) (h0 : ¬(n + 1) % 8 = 0) :
    batchOf (n + 1) h = batchOf n (Nat.lt_of_succ_lt h) := by
  apply Fin.ext; show (n + 1) / 8 = n / 8; omega

/-- Batch block `b` of the activations as the region finds them: all 2048 rows, under a leading unit axis. -/
def xbat (c : Dev nD) (b : Fin 4) : Vec F S1x2048x1024 .f32 :=
  fun y => V m c main_arg0 (ix3 b (y 1) (y 2) : S4x2048x1024.Idx)

/-- The activations' block at a point is its batch block. -/
theorem iblk0_eq (c : Dev nD) (t : Fin cfg0.N) : (iblk m c 0 t : Vec F S1x2048x1024 .f32) = xbat m c (batchOf t.val t.isLt) := by
  obtain ⟨h0, h1, h2⟩ := index0 t
  funext y
  unfold iblk xbat
  rw [View.read_apply]
  show V m c main_arg0 _ = V m c main_arg0 _
  congr 1
  funext a
  apply Fin.ext
  have hy0 : (y 0).val < 1 := (y 0).isLt
  match a with
  | ⟨0, _⟩ => show win0_0.index t 0 * 1 + 1 * (y 0).val = t.val / 8; rw [h0]; omega
  | ⟨1, _⟩ => show win0_0.index t 1 * 2048 + 1 * (y 1).val = (y 1).val; rw [h1]; omega
  | ⟨2, _⟩ => show win0_0.index t 2 * 1024 + 1 * (y 2).val = (y 2).val; rw [h2]; omega

/-- The weight and bias windows are their whole arrays at every point. -/

theorem iblk1_eq (c : Dev nD) (t : Fin cfg0.N) : (iblk m c 1 t : Vec F S1024x1024 .bf16) = V m c main_v1 := by
  obtain ⟨h0, h1⟩ := index1 t
  funext y
  unfold iblk
  rw [View.read_apply]
  show V m c main_v1 _ = V m c main_v1 y
  congr 1
  funext a
  apply Fin.ext
  match a with
  | ⟨0, _⟩ => show win0_1.index t 0 * 1024 + 1 * (y 0).val = (y 0).val; rw [h0]; omega
  | ⟨1, _⟩ => show win0_1.index t 1 * 1024 + 1 * (y 1).val = (y 1).val; rw [h1]; omega

theorem iblk2_eq (c : Dev nD) (t : Fin cfg0.N) : (iblk m c 2 t : Vec F S1x1024 .f32) = V m c main_v6 := by
  obtain ⟨h0, h1⟩ := index2 t
  funext y
  unfold iblk
  rw [View.read_apply]
  show V m c main_v6 _ = V m c main_v6 y
  congr 1
  funext a
  apply Fin.ext
  match a with
  | ⟨0, _⟩ => show win0_2.index t 0 * 1 + 1 * (y 0).val = (y 0).val; rw [h0]; omega
  | ⟨1, _⟩ => show win0_2.index t 1 * 1024 + 1 * (y 1).val = (y 1).val; rw [h1]; omega

theorem iblk3_eq (c : Dev nD) (t : Fin cfg0.N) : (iblk m c 3 t : Vec F S1024x1024 .bf16) = V m c main_v3 := by
  obtain ⟨h0, h1⟩ := index3 t
  funext y
  unfold iblk
  rw [View.read_apply]
  show V m c main_v3 _ = V m c main_v3 y
  congr 1
  funext a
  apply Fin.ext
  match a with
  | ⟨0, _⟩ => show win0_3.index t 0 * 1024 + 1 * (y 0).val = (y 0).val; rw [h0]; omega
  | ⟨1, _⟩ => show win0_3.index t 1 * 1024 + 1 * (y 1).val = (y 1).val; rw [h1]; omega

theorem iblk4_eq (c : Dev nD) (t : Fin cfg0.N) : (iblk m c 4 t : Vec F S1x1024 .f32) = V m c main_v7 := by
  obtain ⟨h0, h1⟩ := index4 t
  funext y
  unfold iblk
  rw [View.read_apply]
  show V m c main_v7 _ = V m c main_v7 y
  congr 1
  funext a
  apply Fin.ext
  match a with
  | ⟨0, _⟩ => show win0_4.index t 0 * 1 + 1 * (y 0).val = (y 0).val; rw [h0]; omega
  | ⟨1, _⟩ => show win0_4.index t 1 * 1024 + 1 * (y 1).val = (y 1).val; rw [h1]; omega

theorem iblk5_eq (c : Dev nD) (t : Fin cfg0.N) : (iblk m c 5 t : Vec F S1024x1024 .bf16) = V m c main_v5 := by
  obtain ⟨h0, h1⟩ := index5 t
  funext y
  unfold iblk
  rw [View.read_apply]
  show V m c main_v5 _ = V m c main_v5 y
  congr 1
  funext a
  apply Fin.ext
  match a with
  | ⟨0, _⟩ => show win0_5.index t 0 * 1024 + 1 * (y 0).val = (y 0).val; rw [h0]; omega
  | ⟨1, _⟩ => show win0_5.index t 1 * 1024 + 1 * (y 1).val = (y 1).val; rw [h1]; omega

theorem iblk6_eq (c : Dev nD) (t : Fin cfg0.N) : (iblk m c 6 t : Vec F S1x1024 .f32) = V m c main_v8 := by
  obtain ⟨h0, h1⟩ := index6 t
  funext y
  unfold iblk
  rw [View.read_apply]
  show V m c main_v8 _ = V m c main_v8 y
  congr 1
  funext a
  apply Fin.ext
  match a with
  | ⟨0, _⟩ => show win0_6.index t 0 * 1 + 1 * (y 0).val = (y 0).val; rw [h0]; omega
  | ⟨1, _⟩ => show win0_6.index t 1 * 1024 + 1 * (y 1).val = (y 1).val; rw [h1]; omega

/-! ## The scratch after every point -/

/-- The key and value matrices of batch `b`. -/
abbrev keysOf (c : Dev nD) (b : Fin 4) : Vec F S2048x1024 .bf16 := k0_pay3 (xbat m c b) (V m c main_v3) (V m c main_v7)
abbrev valuesOf (c : Dev nD) (b : Fin 4) : Vec F S2048x1024 .bf16 := k0_pay4 (xbat m c b) (V m c main_v5) (V m c main_v8)

/-- At the first point of a batch the body fills the scratch with that batch's keys and values. -/
theorem scratch_first (c : Dev nD) (t : Fin cfg0.N) (h0 : t.val % 8 = 0) :
    (outsAt0 m c t.val t.isLt).2.1 = keysOf m c (batchOf t.val t.isLt)
      ∧ (outsAt0 m c t.val t.isLt).2.2 = valuesOf m c (batchOf t.val t.isLt) := by
  rw [outsAt0_A m c t h0]
  dsimp only
  rw [keys_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
    values_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
    iblk0_eq, iblk3_eq, iblk4_eq, iblk5_eq, iblk6_eq]
  exact ⟨rfl, rfl⟩

/-- After every point the scratch holds the keys and values of the point's batch: filled at the batch's first
    point, untouched by the others. -/
theorem scratch_eq (c : Dev nD) : ∀ (n : ℕ) (h : n < cfg0.N),
    (outsAt0 m c n h).2.1 = keysOf m c (batchOf n h) ∧ (outsAt0 m c n h).2.2 = valuesOf m c (batchOf n h)
  | 0, h => scratch_first m c ⟨0, h⟩ rfl
  | n + 1, h => by
    by_cases h0 : (n + 1) % 8 = 0
    · exact scratch_first m c ⟨n + 1, h⟩ h0
    · have ih := scratch_eq c n (Nat.lt_of_succ_lt h)
      rw [outsAt0_B m c ⟨n + 1, h⟩ h0]
      dsimp only
      unfold sout0_B_0 sout0_B_1
      rw [batchOf_succ n h h0]
      exact ih

/-! ## The output block of every point -/

/-- The output block of point `t`: the attention of its query rows against its batch's keys and values. -/
theorem out_eq (c : Dev nD) (t : Fin cfg0.N) :
    (outsAt0 m c t.val t.isLt).1
      = outBlock (grid0.coords t) (xbat m c (batchOf t.val t.isLt)) (V m c main_v1) (V m c main_v6)
          (keysOf m c (batchOf t.val t.isLt)) (valuesOf m c (batchOf t.val t.isLt)) := by
  by_cases h0 : t.val % 8 = 0
  · rw [outsAt0_A m c t h0]
    dsimp only
    rw [out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
      iblk0_eq, iblk1_eq, iblk2_eq, iblk3_eq, iblk4_eq, iblk5_eq, iblk6_eq]
  · obtain ⟨n, hn⟩ := t
    cases n with
    | zero => exact absurd rfl h0
    | succ n =>
      have ih := scratch_eq m c n (Nat.lt_of_succ_lt hn)
      rw [outsAt0_B m c ⟨n + 1, hn⟩ h0]
      dsimp only
      rw [out_later c (grid0.coords ⟨n + 1, hn⟩) _ _ _ _ _ _ _ _ _ _ _ _ _ _ _ _ _ _ _ _ _ _ _ _ _ _ _ _ _ _, iblk0_eq, iblk1_eq, iblk2_eq]
      show outBlock _ _ _ _ (outsAt0 m c n _).2.1 (outsAt0 m c n _).2.2 = _
      rw [ih.1, ih.2, batchOf_succ n hn h0]

end Cert.KernelIdeal.AttnValue

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.LibRowProducts.lean ====
/-
  Products of the rows of two matrices, on the extended reals.

  General lemma, for any extents: the product of an `M × K` matrix `A` with the transpose of an `N × K` matrix `B`
  — both operands contracted along their second axis — into a zero accumulator, read at `(i, j)`, is the sum over
  `l` of `A (i, l) · B (j, l)`: the inner product of row `i` of `A` with row `j` of `B`.  Indices are built
  from their coordinates (`ix2`), so the lemma rewrites a term at a literal position.
-/
import Idealize.ShloMosaic.PureOps.Ideal.Laws
import Idealize.ShloMosaic.Lib.ValueIdx

noncomputable section

open Idealize.ShloMosaic Idealize.ShloMosaic.ValueIdx

namespace Cert.RowProducts

/-- A product of an `M × K` matrix with the transpose of an `N × K` matrix into a zero accumulator, read at
    `(i, j)`: the sum over the contracted position `l` of `A (i, l) · B (j, l)`.  The four hypotheses say which
    coordinate of each operand index is the row and which the contracted position; at a literal record each holds
    by computation. -/
theorem matmul_transposed_zero_apply {M K N : Nat} {φ₁ φ₂ : FTy} (d : DotDims ⟨2, ![M, K]⟩ ⟨2, ![N, K]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (j 1).val) (hr1 : ∀ j k, (d.rhsIdx j k 1).val = (k ⟨0, by omega⟩).val)
    (A : FVec Ideal ⟨2, ![M, K]⟩ φ₁) (B : FVec Ideal ⟨2, ![N, K]⟩ φ₂) (i : Fin M) (j : Fin N) :
    matmul d none A B (constant ⟨2, ![M, N]⟩ .f32 0x00000000#32) (ix2 i j) = ∑ l : Fin K, A (ix2 i l) * B (ix2 j l) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 j l := by
    funext a; apply Fin.ext
    match a with
    | ⟨0, _⟩ => exact hr0 _ _
    | ⟨1, _⟩ => exact (hr1 _ _).trans (contrEquiv1_symm_val d K hr hs l)
  rw [e1, e2]

end Cert.RowProducts

end
-- ==== Proof.LibWordAccumulators.lean ====
/-
  Reductions of a single-precision matrix whose accumulator is a WRITTEN-OUT word, read at an index, on the
  extended reals (general: any extents).

  A printed reduction carries, as its evidence that the accumulator is the operation's neutral element, a proof of
  an equation between two numerals (`0x00000000#32 = 0x00000000#32`, `0xFF800000#32 = 0xFF800000#32`).  The lemmas
  here are stated with the evidence typed exactly so, and therefore rewrite such a term where it stands:
  * `laneSum_zero_apply`: the sum along the rows of an [a, b] matrix from the zero word, read at row `i`, is the sum
    of row `i`;
  * `rowsSum_zero_apply`: the sum over the row axis from the zero word, read at column `j`, is the sum of column `j`;
  * `laneMax_negInf_apply`: the maximum along the rows from the word of `−∞`, read at row `i`, is the fold of `max`
    from that word's value over row `i`.
-/
import Idealize.ShloMosaic.PureOps.Ideal.Laws
import Idealize.ShloMosaic.Lib.ValueIdx

noncomputable section

open scoped BigOperators

open Idealize.ShloMosaic Idealize.ShloMosaic.ValueIdx

namespace Cert.WordAccumulators

/-- The sum of an `a × b` matrix along its rows from the zero word, read at `i`: the sum of row `i`. -/
theorem laneSum_zero_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  show (∑ k : Fin b, src (h.lift (ix1 i) k)) = _
  refine Finset.sum_congr rfl fun k _ => congrArg src ?_
  funext d; apply Fin.ext
  match d with
  | ⟨0, _⟩ => rfl
  | ⟨1, _⟩ => rfl

/-- The sum of an `a × b` matrix over its row axis from the zero word, read at column `j`: the sum of column `j`. -/
theorem rowsSum_zero_apply {a b : Nat} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ r : Fin a, src (ix2 r j) := by
  refine (Ideal.multiReduction_add_single src 0x00000000#32 h hφ hacc (ix1 j)).trans ?_
  show (∑ r : Fin a, src (h.lift (ix1 j) r)) = _
  refine Finset.sum_congr rfl fun r _ => congrArg src ?_
  funext d; apply Fin.ext
  match d with
  | ⟨0, _⟩ => rfl
  | ⟨1, _⟩ => rfl

/-- The maximum of an `a × b` matrix along its rows from the word of `−∞`, read at `i`: the fold of `max`, from that
    word's value, over row `i`. -/
theorem laneMax_negInf_apply {a b : Nat} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src 0xFF800000#32 h hφ hacc (ix1 i)).trans ?_
  show (Finset.univ : Finset (Fin b)).fold max (Ideal.ofBits .f32 0xFF800000#32) (fun k => src (h.lift (ix1 i) k)) = _
  refine congrArg (fun f => Finset.fold max (Ideal.ofBits .f32 0xFF800000#32) f (Finset.univ : Finset (Fin b))) ?_
  funext k
  refine congrArg src ?_
  funext d; apply Fin.ext
  match d with
  | ⟨0, _⟩ => rfl
  | ⟨1, _⟩ => rfl

end Cert.WordAccumulators

end
-- ==== Proof.LibNormExp.lean ====
/-
  The normalised exponentials of a finite family of extended reals — each entry's exponential after the
  family's supremum is subtracted, divided by the sum of those exponentials — as ONE function of the family,
  and the three facts that let two differently arranged computations of it meet:

  * it does not see how the family is indexed: along a bijection of index types the supremum and the sum are
    the same, so the value at an index is the value at its image (`normExp_comp_equiv`);
  * a maximum folded from `⊥` over all the indices of a finite type is the family's supremum
    (`fold_max_bot`), and a supremum over a rank-2 index set is the supremum over the rows of the
    suprema along each row (`iSup_idx2`);
  * a sum started at `0` is the sum (`zero_add`), and a sum over a rank-2 index set is the double sum
    (the library's `sum_idx2`);
  * a family recast to another shape, normalised there and recast back is the family normalised in place
    (`shapeCast_normExp_shapeCast`).

  Only commutativity and associativity of `max` and `+` on the extended reals are used: no entry needs to
  be finite.
-/
import Idealize.ShloMosaic.PureOps.Ideal
import Idealize.ShloMosaic.Lib.ValueIdx

noncomputable section

open scoped BigOperators

namespace Cert.NormExp

open Idealize.ShloMosaic Idealize.ShloMosaic.ValueIdx

variable {ι κ : Type*} [Fintype ι] [Fintype κ]

/-- `exp (v i − sup v) / ∑ j, exp (v j − sup v)` on the extended reals, with the ideal instance's
    exponential and quotient. -/
def normExp (v : ι → EReal) (i : ι) : EReal :=
  Ideal.div (Ideal.exp (v i - ⨆ j, v j)) (∑ j, Ideal.exp (v j - ⨆ k, v k))

/-- Re-indexing the family along a bijection re-indexes the result: the supremum and the sum range over the
    same entries. -/
theorem normExp_comp_equiv (e : ι ≃ κ) (v : κ → EReal) (i : ι) :
    normExp (fun a => v (e a)) i = normExp v (e i) := by
  unfold normExp
  rw [Equiv.iSup_comp (g := v) e, Equiv.sum_comp e (fun b => Ideal.exp (v b - ⨆ k, v k))]

/-- The maximum folded from `⊥` over every index is the supremum of the family. -/
theorem fold_max_bot (f : ι → EReal) : (Finset.univ : Finset ι).fold max ⊥ f = ⨆ i, f i := by
  rw [← Finset.sup_univ_eq_iSup]
  rfl

/-- The supremum over a rank-2 index set, row by row: the supremum over the rows of each row's supremum. -/
theorem iSup_idx2 {n0 n1 : Nat} (g : (⟨2, ![n0, n1]⟩ : Shape).Idx → EReal) :
    ⨆ j, g j = ⨆ a : Fin n0, ⨆ b : Fin n1, g (ix2 a b) := by
  rw [← Equiv.iSup_comp (g := g) (idxEquiv2 (n0 := n0) (n1 := n1)).symm, iSup_prod]
  rfl

/-- A family laid out under one shape, recast to another shape of as many entries, normalised there, and the
    result recast back, is the family normalised where it was: a recast only renames the positions
    (row-major order is a bijection of the two index sets), and `normExp` does not see names. -/
theorem shapeCast_normExp_shapeCast {s t : Shape} (h1 : s.ShapeCasts t) (h2 : t.ShapeCasts s) (f : EReal → EReal)
    (v : s.Idx → EReal) :
    shapeCast s (normExp fun j => f (shapeCast t v h1 j)) h2 = normExp fun i => f (v i) := by
  funext i
  unfold shapeCast
  refine (normExp_comp_equiv (Shape.reshapeEquiv h1) (fun a => f (v a)) (Shape.reshapeEquiv h2 i)).trans ?_
  rw [Shape.reshapeEquiv_reshapeEquiv, Shape.reshapeEquiv_self]

/-- The f32 word of negative infinity is the least extended real. -/
theorem ofBits_negInf_f32 : Ideal.ofBits .f32 0xFF800000#32 = ⊥ := by
  simp [Ideal.ofBits, Ideal.ieee]

end Cert.NormExp

end
-- ==== Proof.BlockMath.lean ====
/-
  The body's arithmetic read at an index, on the extended reals.

  The body of a grid point is made of four matrix products, a row maximum, a row sum and pointwise operations.  Read
  at an index, on the extended reals (where a change of float format is the identity):
    * a projection (keys, values, queries) at (k, d) is Σ_j X(0, k, j) · W(j, d) + B(0, d);
    * the scores at (p, k) are Σ_d Q(p, d) · K(k, d), both operands contracted along their second axis;
    * the weights at (p, k) are exp(s(p, k) − sup_k' s(p, k')) times the reciprocal of the sum over j of
      exp(s(p, j) − sup_k' s(p, k')): the row maximum folded from −∞ is the supremum of the row;
    * the output at (p, e) is Σ_k a(p, k) · V(k, e).
-/
import proofs.«144892_j74096775790730_2_alg».proof.Proof.Gen.KernelIdeal.Skeleton
import proofs.«144892_j74096775790730_2_alg».proof.Proof.LibMatRows
import proofs.«144892_j74096775790730_2_alg».proof.Proof.LibRowProducts
import proofs.«144892_j74096775790730_2_alg».proof.Proof.LibWordAccumulators
import proofs.«144892_j74096775790730_2_alg».proof.Proof.LibNormExp
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem

namespace Cert.KernelIdeal.AttnValue

open Cert.KernelIdeal Cert.KernelIdeal.Gen

open Idealize.ShloMosaic.ValueIdx
open scoped BigOperators

/-! ## Which coordinate of each operand is the row, the column, the contracted position -/

theorem dK_lhs0 (j : _) (k : dot_S2048x1024_S1024x1024_S2048x1024_1_0_0_1_n_n.contr.Idx) : (dot_S2048x1024_S1024x1024_S2048x1024_1_0_0_1_n_n.lhsIdx j k 0).val = (j 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem dK_lhs1 (j : _) (k : dot_S2048x1024_S1024x1024_S2048x1024_1_0_0_1_n_n.contr.Idx) : (dot_S2048x1024_S1024x1024_S2048x1024_1_0_0_1_n_n.lhsIdx j k 1).val = (k ⟨0, by decide⟩).val :=
  dot_S2048x1024_S1024x1024_S2048x1024_1_0_0_1_n_n.lhsIdx_val_of_single rfl j k
theorem dK_rhs1 (j : _) (k : dot_S2048x1024_S1024x1024_S2048x1024_1_0_0_1_n_n.contr.Idx) : (dot_S2048x1024_S1024x1024_S2048x1024_1_0_0_1_n_n.rhsIdx j k 1).val = (j 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl
theorem dK_rhs0 (j : _) (k : dot_S2048x1024_S1024x1024_S2048x1024_1_0_0_1_n_n.contr.Idx) : (dot_S2048x1024_S1024x1024_S2048x1024_1_0_0_1_n_n.rhsIdx j k 0).val = (k ⟨0, by decide⟩).val :=
  dot_S2048x1024_S1024x1024_S2048x1024_1_0_0_1_n_n.rhsIdx_val_of_single rfl j k
theorem dQ_lhs0 (j : _) (k : dot_S256x1024_S1024x1024_S256x1024_1_0_0_1_n_n.contr.Idx) : (dot_S256x1024_S1024x1024_S256x1024_1_0_0_1_n_n.lhsIdx j k 0).val = (j 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem dQ_lhs1 (j : _) (k : dot_S256x1024_S1024x1024_S256x1024_1_0_0_1_n_n.contr.Idx) : (dot_S256x1024_S1024x1024_S256x1024_1_0_0_1_n_n.lhsIdx j k 1).val = (k ⟨0, by decide⟩).val :=
  dot_S256x1024_S1024x1024_S256x1024_1_0_0_1_n_n.lhsIdx_val_of_single rfl j k
theorem dQ_rhs1 (j : _) (k : dot_S256x1024_S1024x1024_S256x1024_1_0_0_1_n_n.contr.Idx) : (dot_S256x1024_S1024x1024_S256x1024_1_0_0_1_n_n.rhsIdx j k 1).val = (j 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
theorem dQ_rhs0 (j : _) (k : dot_S256x1024_S1024x1024_S256x1024_1_0_0_1_n_n.contr.Idx) : (dot_S256x1024_S1024x1024_S256x1024_1_0_0_1_n_n.rhsIdx j k 0).val = (k ⟨0, by decide⟩).val :=
  dot_S256x1024_S1024x1024_S256x1024_1_0_0_1_n_n.rhsIdx_val_of_single rfl j k
theorem dS_lhs0 (j : _) (k : dot_S256x1024_S2048x1024_S256x2048_1_1_0_0_n_n.contr.Idx) : (dot_S256x1024_S2048x1024_S256x2048_1_1_0_0_n_n.lhsIdx j k 0).val = (j 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem dS_lhs1 (j : _) (k : dot_S256x1024_S2048x1024_S256x2048_1_1_0_0_n_n.contr.Idx) : (dot_S256x1024_S2048x1024_S256x2048_1_1_0_0_n_n.lhsIdx j k 1).val = (k ⟨0, by decide⟩).val :=
  dot_S256x1024_S2048x1024_S256x2048_1_1_0_0_n_n.lhsIdx_val_of_single rfl j k
theorem dS_rhs0 (j : _) (k : dot_S256x1024_S2048x1024_S256x2048_1_1_0_0_n_n.contr.Idx) : (dot_S256x1024_S2048x1024_S256x2048_1_1_0_0_n_n.rhsIdx j k 0).val = (j 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem dS_rhs1 (j : _) (k : dot_S256x1024_S2048x1024_S256x2048_1_1_0_0_n_n.contr.Idx) : (dot_S256x1024_S2048x1024_S256x2048_1_1_0_0_n_n.rhsIdx j k 1).val = (k ⟨0, by decide⟩).val :=
  dot_S256x1024_S2048x1024_S256x2048_1_1_0_0_n_n.rhsIdx_val_of_single rfl j k
theorem dO_lhs0 (j : _) (k : dot_S256x2048_S2048x1024_S256x1024_1_0_0_1_n_n.contr.Idx) : (dot_S256x2048_S2048x1024_S256x1024_1_0_0_1_n_n.lhsIdx j k 0).val = (j 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem dO_lhs1 (j : _) (k : dot_S256x2048_S2048x1024_S256x1024_1_0_0_1_n_n.contr.Idx) : (dot_S256x2048_S2048x1024_S256x1024_1_0_0_1_n_n.lhsIdx j k 1).val = (k ⟨0, by decide⟩).val :=
  dot_S256x2048_S2048x1024_S256x1024_1_0_0_1_n_n.lhsIdx_val_of_single rfl j k
theorem dO_rhs1 (j : _) (k : dot_S256x2048_S2048x1024_S256x1024_1_0_0_1_n_n.contr.Idx) : (dot_S256x2048_S2048x1024_S256x1024_1_0_0_1_n_n.rhsIdx j k 1).val = (j 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl
theorem dO_rhs0 (j : _) (k : dot_S256x2048_S2048x1024_S256x1024_1_0_0_1_n_n.contr.Idx) : (dot_S256x2048_S2048x1024_S256x1024_1_0_0_1_n_n.rhsIdx j k 0).val = (k ⟨0, by decide⟩).val :=
  dot_S256x2048_S2048x1024_S256x1024_1_0_0_1_n_n.rhsIdx_val_of_single rfl j k

/-! ## The projections -/

/-- The key projection of a batch block at (k, d). -/
theorem keys_apply (X : Vec Ideal S1x2048x1024 .f32) (W : Vec Ideal S1024x1024 .bf16) (B : Vec Ideal S1x1024 .f32)
    (k : Fin 2048) (d : Fin 1024) :
    k0_pay3 X W B (ix2 k d) = (∑ j : Fin 1024, X (ix3 (0 : Fin 1) k j) * W (ix2 j d)) + B (ix2 (0 : Fin 1) d) := by
  unfold k0_pay3 k0_pay2
  refine (congrFun (shapeCast_self _ _) _).trans ?_
  show matmul (F := Ideal) dot_S2048x1024_S1024x1024_S2048x1024_1_0_0_1_n_n none (shapeCast S2048x1024 X shapeCasts_S1x2048x1024_S2048x1024)
      (shapeCast S1024x1024 W shapeCasts_S1024x1024_S1024x1024) (constant (F := Ideal) S2048x1024 .f32 0x00000000#32) (ix2 k d)
      + broadcastTo S2048x1024 (shapeCast S1x1024 B shapeCasts_S1x1024_S1x1024) broadcasts_S1x1024_S2048x1024 (ix2 k d) = _
  rw [Cert.MatRows.matmul_zero_apply _ rfl rfl dK_lhs0 dK_lhs1 dK_rhs0 dK_rhs1, broadcastTo_1b_ab_apply]
  simp only [shapeCast_self, shapeCast_1ab_ab_apply]

/-- The value projection is the same function of its own weights and bias. -/
theorem values_eq (X : Vec Ideal S1x2048x1024 .f32) (W : Vec Ideal S1024x1024 .bf16) (B : Vec Ideal S1x1024 .f32) :
    k0_pay4 X W B = k0_pay3 X W B := rfl

/-- The word of `1.0`. -/
theorem ofBits_one_word : Ideal.ofBits .f32 0x3F800000#32 = (1 : EReal) := by
  rw [← EReal.coe_one]
  simp [Ideal.ofBits, Ideal.ieee, -EReal.coe_mul, -EReal.coe_one]
  norm_num

/-! ## The attention of a point, in four steps -/

/-- The scaled query projection of a point's 256 query rows. -/
def queries (Xq : Vec Ideal S1x256x1024 .f32) (W : Vec Ideal S1024x1024 .bf16) (B : Vec Ideal S1x1024 .f32) :
    FVec Ideal S256x1024 .bf16 :=
  truncf .bf16 (mulf (addf
      (matmul (F := Ideal) dot_S256x1024_S1024x1024_S256x1024_1_0_0_1_n_n none
        (truncf .bf16 (shapeCast S256x1024 Xq shapeCasts_S1x256x1024_S256x1024 : FVec Ideal S256x1024 .f32) bitsLt_bf16_f32)
        (shapeCast S1024x1024 W shapeCasts_S1024x1024_S1024x1024 : FVec Ideal S1024x1024 .bf16) (constant (F := Ideal) S256x1024 .f32 0x00000000#32))
      (broadcastTo S256x1024 (shapeCast S1x1024 B shapeCasts_S1x1024_S1x1024 : FVec Ideal S1x1024 .f32) broadcasts_S1x1024_S256x1024))
    (broadcast S256x1024 (Scalar.ofBits (F := Ideal) .f32 0x3D000000#32))) bitsLt_bf16_f32

/-- The scores of the query rows against all 2048 key rows. -/
def scores (Q : FVec Ideal S256x1024 .bf16) (Ks : FVec Ideal S2048x1024 .bf16) : FVec Ideal S256x2048 .f32 :=
  matmul (F := Ideal) dot_S256x1024_S2048x1024_S256x2048_1_1_0_0_n_n none Q Ks (constant (F := Ideal) S256x2048 .f32 0x00000000#32)

/-- The weights of a score matrix: along each row, the exponentials after the row maximum is subtracted, times the
    reciprocal of their sum. -/
def weights (s : FVec Ideal S256x2048 .f32) : FVec Ideal S256x2048 .bf16 :=
  have v22 : FVec Ideal S256 .f32 := multiReduction .maximumf [1] S256 s 0xFF800000#32 reduces_S256x2048_S256 (.inl rfl) rfl
  have v24 : FVec Ideal S256x2048 .f32 := broadcastTo S256x2048 (shapeCast S256x1 v22 shapeCasts_S256_S256x1) broadcasts_S256x1_S256x2048
  have v26 : FVec Ideal S256x2048 .f32 := exp (subf s v24)
  have v27 : FVec Ideal S256 .f32 := multiReduction .add [1] S256 v26 0x00000000#32 reduces_S256x2048_S256 (.inl rfl) rfl
  have v30 : FVec Ideal S256x1 .f32 := divf (broadcast S256x1 (Scalar.ofBits (F := Ideal) .f32 0x3F800000#32)) (shapeCast S256x1 v27 shapeCasts_S256_S256x1)
  truncf .bf16 (mulf v26 (broadcastTo S256x2048 v30 broadcasts_S256x1_S256x2048)) bitsLt_bf16_f32

/-- The weighted mix of the value rows. -/
def mix (a : FVec Ideal S256x2048 .bf16) (Vs : FVec Ideal S2048x1024 .bf16) : FVec Ideal S256x1024 .f32 :=
  matmul (F := Ideal) dot_S256x2048_S2048x1024_S256x1024_1_0_0_1_n_n none a Vs (constant (F := Ideal) S256x1024 .f32 0x00000000#32)

/-- The body's arithmetic is these four steps. -/
theorem pay5_eq (Xq : Vec Ideal S1x256x1024 .f32) (W : Vec Ideal S1024x1024 .bf16) (B : Vec Ideal S1x1024 .f32)
    (Ks Vs : Vec Ideal S2048x1024 .bf16) :
    k0_pay5 Xq W B Ks Vs = mix (weights (scores (queries Xq W B) Ks)) Vs := rfl

theorem queries_apply (Xq : Vec Ideal S1x256x1024 .f32) (W : Vec Ideal S1024x1024 .bf16) (B : Vec Ideal S1x1024 .f32)
    (p : Fin 256) (d : Fin 1024) :
    queries Xq W B (ix2 p d)
      = ((∑ j : Fin 1024, Xq (ix3 (0 : Fin 1) p j) * W (ix2 j d)) + B (ix2 (0 : Fin 1) d)) * Ideal.ofBits .f32 0x3D000000#32 := by
  unfold queries
  show (matmul (F := Ideal) dot_S256x1024_S1024x1024_S256x1024_1_0_0_1_n_n none (shapeCast S256x1024 Xq shapeCasts_S1x256x1024_S256x1024 : FVec Ideal S256x1024 .f32)
      (shapeCast S1024x1024 W shapeCasts_S1024x1024_S1024x1024 : FVec Ideal S1024x1024 .bf16) (constant (F := Ideal) S256x1024 .f32 0x00000000#32) (ix2 p d)
      + broadcastTo S256x1024 (shapeCast S1x1024 B shapeCasts_S1x1024_S1x1024 : FVec Ideal S1x1024 .f32) broadcasts_S1x1024_S256x1024 (ix2 p d))
      * Ideal.ofBits .f32 0x3D000000#32 = _
  rw [Cert.MatRows.matmul_zero_apply _ rfl rfl dQ_lhs0 dQ_lhs1 dQ_rhs0 dQ_rhs1, broadcastTo_1b_ab_apply]
  simp only [shapeCast_self, shapeCast_1ab_ab_apply]

theorem scores_apply (Q : FVec Ideal S256x1024 .bf16) (Ks : FVec Ideal S2048x1024 .bf16) (p : Fin 256) (k : Fin 2048) :
    scores Q Ks (ix2 p k) = ∑ d : Fin 1024, Q (ix2 p d) * Ks (ix2 k d) := by
  unfold scores
  exact Cert.RowProducts.matmul_transposed_zero_apply _ rfl rfl dS_lhs0 dS_lhs1 dS_rhs0 dS_rhs1 Q Ks p k

theorem mix_apply (a : FVec Ideal S256x2048 .bf16) (Vs : FVec Ideal S2048x1024 .bf16) (p : Fin 256) (e : Fin 1024) :
    mix a Vs (ix2 p e) = ∑ k : Fin 2048, a (ix2 p k) * Vs (ix2 k e) := by
  unfold mix
  exact Cert.MatRows.matmul_zero_apply _ rfl rfl dO_lhs0 dO_lhs1 dO_rhs0 dO_rhs1 a Vs p e

theorem weights_apply (s : FVec Ideal S256x2048 .f32) (p : Fin 256) (k : Fin 2048) :
    weights s (ix2 p k)
      = Ideal.exp (s (ix2 p k) - ⨆ k' : Fin 2048, s (ix2 p k'))
        * Ideal.div 1 (∑ j : Fin 2048, Ideal.exp (s (ix2 p j) - ⨆ k' : Fin 2048, s (ix2 p k'))) := by
  have hmax : ∀ q : Fin 256, multiReduction .maximumf [1] S256 s 0xFF800000#32 reduces_S256x2048_S256 (.inl rfl) rfl (ix1 q)
      = ⨆ k' : Fin 2048, s (ix2 q k') := fun q => by
    rw [Cert.WordAccumulators.laneMax_negInf_apply, Cert.NormExp.ofBits_negInf_f32, Cert.NormExp.fold_max_bot]
  have hrow : ∀ (q : Fin 256) (j : Fin 2048),
      (exp (subf s (broadcastTo S256x2048 (shapeCast S256x1 (multiReduction .maximumf [1] S256 s 0xFF800000#32 reduces_S256x2048_S256 (.inl rfl) rfl)
        shapeCasts_S256_S256x1) broadcasts_S256x1_S256x2048)) : FVec Ideal S256x2048 .f32) (ix2 q j)
        = Ideal.exp (s (ix2 q j) - ⨆ k' : Fin 2048, s (ix2 q k')) := fun q j => by
    show Ideal.exp (s (ix2 q j) - broadcastTo S256x2048 (shapeCast S256x1 (multiReduction .maximumf [1] S256 s 0xFF800000#32 reduces_S256x2048_S256 (.inl rfl) rfl)
        shapeCasts_S256_S256x1) broadcasts_S256x1_S256x2048 (ix2 q j)) = _
    rw [Cert.MatRows.colBroadcast_apply, Cert.MatRows.colCast_apply, hmax]
  unfold weights
  show (exp (subf s (broadcastTo S256x2048 (shapeCast S256x1 (multiReduction .maximumf [1] S256 s 0xFF800000#32 reduces_S256x2048_S256 (.inl rfl) rfl)
        shapeCasts_S256_S256x1) broadcasts_S256x1_S256x2048)) : FVec Ideal S256x2048 .f32) (ix2 p k)
      * broadcastTo S256x2048 (divf (broadcast S256x1 (Scalar.ofBits (F := Ideal) .f32 0x3F800000#32))
          (shapeCast S256x1 (multiReduction .add [1] S256 (exp (subf s (broadcastTo S256x2048 (shapeCast S256x1 (multiReduction .maximumf [1] S256 s 0xFF800000#32 reduces_S256x2048_S256 (.inl rfl) rfl)
        shapeCasts_S256_S256x1) broadcasts_S256x1_S256x2048)) : FVec Ideal S256x2048 .f32) 0x00000000#32 reduces_S256x2048_S256 (.inl rfl) rfl) shapeCasts_S256_S256x1))
          broadcasts_S256x1_S256x2048 (ix2 p k) = _
  rw [hrow, Cert.MatRows.colBroadcast_apply]
  show _ * Ideal.div (Ideal.ofBits .f32 0x3F800000#32) (shapeCast S256x1 (multiReduction (F := Ideal) .add [1] S256 _ 0x00000000#32 reduces_S256x2048_S256 (.inl rfl) rfl : FVec Ideal S256 .f32) shapeCasts_S256_S256x1 (ix2 p (0 : Fin 1))) = _
  rw [Cert.MatRows.colCast_apply, Cert.WordAccumulators.laneSum_zero_apply, ofBits_one_word]
  simp only [hrow]

end Cert.KernelIdeal.AttnValue

end
-- ==== Proof.LibIsReal.lean ====
/-
  Extended reals that are reals.

  The exact instance computes on the extended reals; under a precondition that every input is finite, every
  intermediate value of a program made of sums, products, differences, maxima and divisions by non-zero reals is a real.
  This file has the closure facts, and the two laws that need them: a quotient by the square root of a positive real is
  the product with its reciprocal square root, and the exact instance's division of reals is the real division.
-/
import Idealize.ShloMosaic.PureOps.Ideal

noncomputable section

namespace Cert.LibIsReal

open Idealize.ShloMosaic

/-- `x` is (the image of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact division of reals with a non-zero divisor is the real division. -/
theorem div_coe_coe (a : ℝ) {b : ℝ} (hb : b ≠ 0) : Ideal.div (a : EReal) (b : EReal) = ((a / b : ℝ) : EReal) := by
  rw [Ideal.div_coe hb, ← EReal.coe_mul]; congr 1; field_simp

theorem IsReal.div_coe {x : EReal} (hx : IsReal x) {b : ℝ} (hb : b ≠ 0) : IsReal (Ideal.div x (b : EReal)) := by
  obtain ⟨a, rfl⟩ := hx; exact ⟨a / b, div_coe_coe a hb⟩

/-- A quotient by the square root of a positive real is the product with the reciprocal square root. -/
theorem div_sqrt_eq_mul_rsqrt (a : EReal) {v : ℝ} (hv : 0 < v) :
    Ideal.div a (Ideal.sqrt (v : EReal)) = a * Ideal.rsqrt (v : EReal) := by
  have hs : 0 < Real.sqrt v := Real.sqrt_pos.mpr hv
  have e1 : Ideal.sqrt (v : EReal) = ((Real.sqrt v : ℝ) : EReal) := by
    show (if v < 0 then (⊥ : EReal) else (Real.sqrt v : EReal)) = _
    rw [if_neg (not_lt.mpr hv.le)]
  have e2 : Ideal.rsqrt (v : EReal) = (((Real.sqrt v)⁻¹ : ℝ) : EReal) := by
    show (if v < 0 then (⊥ : EReal) else if v = 0 then ⊤ else (((Real.sqrt v)⁻¹ : ℝ) : EReal)) = _
    rw [if_neg (not_lt.mpr hv.le), if_neg hv.ne']
  rw [e1, e2, Ideal.div_coe hs.ne', one_div]

end Cert.LibIsReal

end
-- ==== Proof.LibRealSums.lean ====
/-
  Finite sums of reals inside the extended reals, and two laws that hold there but fail at the infinities.

  General lemmas (any finite index type, any length):
  * `coe_sum`: the coercion of a finite sum of reals is the sum of the coercions;
  * `sum_mul_const`: in an inner product of two families of reals, a constant real factor applied to every left entry
    comes out of the sum: Σ_d (q d · c) · k d = (Σ_d q d · k d) · c;
  * `exp_mul_recip`: for a non-empty finite family of reals `v`, the exponential of `v i` less the family's supremum,
    TIMES the reciprocal (the exact instance's quotient `1 / ·`) of the sum of those exponentials, is the normalised
    exponential `normExp v i` (the quotient by that sum).  The supremum of the family is one of its entries, so every
    exponent is a real, every exponential is a positive real, the sum is a positive real — in particular not zero,
    which is the one corner where "times the reciprocal" and "divided by" differ on the extended reals.
-/
import Idealize.ShloMosaic.PureOps.Ideal
import proofs.«144892_j74096775790730_2_alg».proof.Proof.LibNormExp
import proofs.«144892_j74096775790730_2_alg».proof.Proof.LibIsReal

noncomputable section

open scoped BigOperators

namespace Cert.RealSums

open Idealize.ShloMosaic Cert.NormExp Cert.LibIsReal

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A common factor of the left entries of an inner product of reals comes out of the sum. -/
theorem sum_mul_const {n : Nat} (q k : Fin n → EReal) (hq : ∀ d, IsReal (q d)) (hk : ∀ d, IsReal (k d)) (c : ℝ) :
    ∑ d : Fin n, (q d * (c : EReal)) * k d = (∑ d : Fin n, q d * k d) * (c : EReal) := by
  choose q' hq' using hq
  choose k' hk' using hk
  have e1 : ∀ d, (q d * (c : EReal)) * k d = ((q' d * c * k' d : ℝ) : EReal) := fun d => by
    rw [hq' d, hk' d, ← EReal.coe_mul, ← EReal.coe_mul]
  have e2 : ∀ d, q d * k d = ((q' d * k' d : ℝ) : EReal) := fun d => by
    rw [hq' d, hk' d, ← EReal.coe_mul]
  simp only [e1, e2]
  rw [← coe_sum, ← coe_sum, ← EReal.coe_mul, Finset.sum_mul]
  refine congrArg _ (Finset.sum_congr rfl fun d _ => ?_)
  ring

/-- An exponential of a real score less the row's supremum, times the reciprocal of the sum of those exponentials, is
    the normalised exponential: over a non-empty finite family of reals the supremum is one of the entries, so every
    exponent is a real, every exponential a positive real, and their sum is not zero. -/
theorem exp_mul_recip {ι : Type} [Fintype ι] [Nonempty ι] (v : ι → EReal) (hv : ∀ i, IsReal (v i)) (i : ι) :
    Ideal.exp (v i - ⨆ j, v j) * Ideal.div 1 (∑ j, Ideal.exp (v j - ⨆ k, v k)) = normExp v i := by
  obtain ⟨j0, hj0⟩ := exists_eq_ciSup_of_finite (f := v)
  obtain ⟨m, hm⟩ := hv j0
  have hsup : (⨆ j, v j) = (m : EReal) := hj0.symm.trans hm
  choose v' hv' using hv
  have hterm : ∀ j, Ideal.exp (v j - ⨆ k, v k) = ((Real.exp (v' j - m) : ℝ) : EReal) := fun j => by
    rw [hsup, hv' j, ← EReal.coe_sub]; rfl
  have hl : (∑ j, Ideal.exp (v j - ⨆ k, v k)) = ((∑ j, Real.exp (v' j - m) : ℝ) : EReal) := by
    rw [coe_sum]; exact Finset.sum_congr rfl fun j _ => hterm j
  have hpos : 0 < ∑ j, Real.exp (v' j - m) := Finset.sum_pos (fun j _ => Real.exp_pos _) Finset.univ_nonempty
  have hne : (∑ j, Ideal.exp (v j - ⨆ k, v k)) ≠ 0 := by
    rw [hl]; exact_mod_cast hpos.ne'
  unfold normExp Ideal.div
  rw [if_neg hne, if_neg hne, one_mul]

end Cert.RealSums

end
-- ==== Proof.Spec.lean ====
/-
  Single-head attention over the extended reals, as ONE function of the seven argument arrays.

  For a batch `b`, a query row `r` and an output column `e`:
    Q(b, r, d) = Σ_j x(b, r, j) · Wq(d, j) + bq(d)        (likewise K with Wk, bk and V with Wv, bv),
    s(b, r, k) = (Σ_d Q(b, r, d) · K(b, k, d)) · (1/32)     (1024 = 32², so 1/√1024 = 1/32),
    a(b, r, ·) = the exponentials of s(b, r, ·), each after the row's supremum is subtracted, over their sum,
    out(b, r, e) = Σ_k a(b, r, k) · V(b, k, e).
  Under finite inputs every projection is a real number (`isReal_proj`), hence every score: that is what
  the two laws joining the two arrangements of this computation need (a factor taken out of an inner product; a
  product with the reciprocal of a sum of exponentials read as the quotient by it).
-/
import Idealize.ShloMosaic.PureOps.Ideal
import Idealize.ShloMosaic.Lib.ValueIdx
import proofs.«144892_j74096775790730_2_alg».proof.Proof.LibNormExp
import proofs.«144892_j74096775790730_2_alg».proof.Proof.LibIsReal
import proofs.«144892_j74096775790730_2_alg».proof.Proof.LibRealSums

noncomputable section

open scoped BigOperators

namespace Cert.Attn

open Idealize.ShloMosaic Idealize.ShloMosaic.ValueIdx Cert.NormExp Cert.LibIsReal

/-- The three kinds of argument array: the activations `[4, 2048, 1024]`, a weight matrix `[1024, 1024]`, a bias
    `[1024]`. -/
abbrev Act : Type := (⟨3, ![4, 2048, 1024]⟩ : Shape).Idx → EReal
abbrev Wgt : Type := (⟨2, ![1024, 1024]⟩ : Shape).Idx → EReal
abbrev Bias : Type := (⟨1, ![1024]⟩ : Shape).Idx → EReal

/-- The scale of the scores, `1/√1024 = 1/32`. -/
def scale : EReal := ((1 / 32 : ℝ) : EReal)

/-- A linear layer: row `(b, r)` of `x` against row `d` of `W`, plus the bias at `d`. -/
def proj (x : Act) (W : Wgt) (β : Bias) (b : Fin 4) (r : Fin 2048) (d : Fin 1024) : EReal :=
  (∑ j : Fin 1024, x (ix3 b r j) * W (ix2 d j)) + β (ix1 d)

/-- The scaled score of query row `r` against key row `k` in batch `b`. -/
def score (x : Act) (Wq : Wgt) (bq : Bias) (Wk : Wgt) (bk : Bias) (b : Fin 4) (r k : Fin 2048) : EReal :=
  (∑ d : Fin 1024, proj x Wq bq b r d * proj x Wk bk b k d) * scale

/-- The attention output at an index of the `[4, 2048, 1024]` result. -/
def attn (x : Act) (Wq : Wgt) (bq : Bias) (Wk : Wgt) (bk : Bias) (Wv : Wgt) (bv : Bias)
    (i : (⟨3, ![4, 2048, 1024]⟩ : Shape).Idx) : EReal :=
  ∑ k : Fin 2048, normExp (fun k' => score x Wq bq Wk bk (i 0) (i 1) k') k * proj x Wv bv (i 0) k (i 2)

/-! ## Reals among the extended reals -/

theorem isReal_proj {x : Act} {W : Wgt} {β : Bias} (hx : ∀ i, IsReal (x i)) (hW : ∀ i, IsReal (W i))
    (hβ : ∀ i, IsReal (β i)) (b : Fin 4) (r : Fin 2048) (d : Fin 1024) : IsReal (proj x W β b r d) :=
  (IsReal.sum _ _ fun j _ => (hx _).mul (hW _)).add (hβ _)

/-! ## The two literals -/

/-- The word `0x3D000000` is `1/32`. -/
theorem ofBits_scale : Ideal.ofBits .f32 0x3D000000#32 = scale := by
  unfold scale
  simp [Ideal.ofBits, Ideal.ieee, -EReal.coe_mul]
  norm_num

/-- The square root of the word `0x44800000` (`1024`) is `32`. -/
theorem sqrt_ofBits_1024 : Ideal.sqrt (Ideal.ofBits .f32 0x44800000#32) = ((32 : ℝ) : EReal) := by
  have h : Ideal.ofBits .f32 0x44800000#32 = ((1024 : ℝ) : EReal) := by
    simp [Ideal.ofBits, Ideal.ieee, -EReal.coe_mul]
    norm_num
  rw [h]
  show (if (1024 : ℝ) < 0 then (⊥ : EReal) else (Real.sqrt 1024 : EReal)) = _
  rw [if_neg (by norm_num)]
  congr 1
  rw [show (1024 : ℝ) = 32 ^ 2 by norm_num, Real.sqrt_sq (by norm_num)]

/-- A quotient by `√1024` is the product with the scale. -/
theorem div_sqrt_1024 (s : EReal) : Ideal.div s (Ideal.sqrt (Ideal.ofBits .f32 0x44800000#32)) = s * scale := by
  rw [sqrt_ofBits_1024, Ideal.div_coe (by norm_num : (32 : ℝ) ≠ 0)]; rfl

end Cert.Attn

end
-- ==== Proof.BlockAttn.lean ====
/-
  One point's output block is the specification's attention of its rows.

  Suppose the point's query rows, projected and biased, are the real numbers Q(p, d); the key matrix it reads holds the
  reals K(k, d); and the value matrix holds V(k, e).  The body scales Q by 1/32 BEFORE the inner products with the keys;
  because every entry is a real, that factor comes out of each inner product, and the scores are (Σ_d Q(p,d)·K(k,d))/32.
  The body multiplies each exponential by the reciprocal of the row's sum of exponentials; because the scores are
  reals, that sum is a positive real and the product is the quotient.  So the output at (p, e) is
  Σ_k normExp(scores of row p)(k) · V(k, e).
-/
import proofs.«144892_j74096775790730_2_alg».proof.Proof.BlockMath
import proofs.«144892_j74096775790730_2_alg».proof.Proof.Spec

noncomputable section

open Idealize.ShloMosaic Idealize.ShloMosaic.TcCoe Idealize.SL.Sem

namespace Cert.KernelIdeal.AttnValue

open Cert.KernelIdeal Cert.KernelIdeal.Gen

open Idealize.ShloMosaic.ValueIdx Cert.NormExp Cert.LibIsReal
open scoped BigOperators

theorem block_attn (Xq : Vec Ideal S1x256x1024 .f32) (W : Vec Ideal S1024x1024 .bf16) (B : Vec Ideal S1x1024 .f32)
    (Ks Vs : Vec Ideal S2048x1024 .bf16)
    (Qp : Fin 256 → Fin 1024 → EReal) (Kp : Fin 2048 → Fin 1024 → EReal) (Vp : Fin 2048 → Fin 1024 → EReal)
    (hQ : ∀ p d, (∑ j : Fin 1024, Xq (ix3 (0 : Fin 1) p j) * W (ix2 j d)) + B (ix2 (0 : Fin 1) d) = Qp p d)
    (hK : ∀ k d, Ks (ix2 k d) = Kp k d) (hV : ∀ k e, Vs (ix2 k e) = Vp k e)
    (hQr : ∀ p d, IsReal (Qp p d)) (hKr : ∀ k d, IsReal (Kp k d)) (u : Fin 1) (p : Fin 256) (e : Fin 1024) :
    k0_pay1 (k0_pay5 Xq W B Ks Vs) (ix3 u p e)
      = ∑ k : Fin 2048, normExp (fun k' => (∑ d : Fin 1024, Qp p d * Kp k' d) * Cert.Attn.scale) k * Vp k e := by
  have hs : ∀ k : Fin 2048, scores (queries Xq W B) Ks (ix2 p k) = (∑ d : Fin 1024, Qp p d * Kp k d) * Cert.Attn.scale := fun k => by
    rw [scores_apply]
    simp only [queries_apply, hQ, hK, Cert.Attn.ofBits_scale]
    exact Cert.RealSums.sum_mul_const _ _ (hQr p) (hKr k) (1 / 32)
  have hsr : ∀ k : Fin 2048, IsReal ((∑ d : Fin 1024, Qp p d * Kp k d) * Cert.Attn.scale) := fun k =>
    (IsReal.sum _ _ fun d _ => (hQr p d).mul (hKr k d)).mul (isReal_coe _)
  unfold k0_pay1
  rw [shapeCast_ab_1ab_apply, pay5_eq, mix_apply]
  refine Finset.sum_congr rfl fun k _ => ?_
  rw [weights_apply, hV]
  simp only [hs]
  rw [Cert.RealSums.exp_mul_recip _ hsr]

end Cert.KernelIdeal.AttnValue

end
-- ==== Proof.KernelValue.lean ====
/-
  The result array after the run is the specification's attention of the argument arrays.

  Before the region the host transposes the three weight matrices and views each bias as a one-row matrix, so the
  region finds W^T(j, d) = W(d, j) and the bias row at (0, d).  With those, the point's projected query rows are the
  specification's Q at rows 256·(t % 8) + p of batch t / 8, its key and value matrices are the specification's K and V
  of that batch, and by the block lemma the block it writes back is the block of the specification's result.  The 32
  output blocks tile the [4, 2048, 1024] array (row r of batch b is in the block of point 8·b + r / 256), so the whole
  array ends at the specification.  The finiteness of the inputs is used exactly where the block lemma asks for reals.
-/
import proofs.«144892_j74096775790730_2_alg».proof.Proof.Blocks
import proofs.«144892_j74096775790730_2_alg».proof.Proof.BlockAttn
import proofs.«144892_j74096775790730_2_alg».proof.Proof.Gen.KernelIdeal.Value
import Idealize.ShloMosaic.Lib.StableHlo.Run
import Idealize.ShloMosaic.Lib.ValueLayout

noncomputable section

open Idealize.ShloMosaic Idealize.ShloMosaic.TcCoe Idealize.SL.Sem

namespace Cert.KernelIdeal.AttnValue

open Cert.KernelIdeal Cert.KernelIdeal.Gen

open Idealize.ShloMosaic.ValueIdx Cert.NormExp Cert.LibIsReal Cert.Attn
open Idealize.ShloMosaic.Pipeline (Dat)
open scoped BigOperators

variable (m : (ℓ : Loc nD τ sig) → Buf (Elt Ideal) ℓ) (ρ : Dev nD → PrngReg)

/-! ## What the region finds -/

theorem wq_apply (c : Dev nD) (j d : Fin 1024) : V m c main_v1 (ix2 j d) = m ((c : Thread nD τ).loc main_arg1) (ix2 d j) := by
  have e : (V m c main_v1 : S1024x1024.Idx → EReal)
      = (truncf (F := Ideal) .bf16 (transpose S1024x1024 [1, 0] (m ((c : Thread nD τ).loc main_arg1)) transposes_S1024x1024_S1024x1024_1_0 : FVec Ideal S1024x1024 .f32) bitsLt_bf16_f32 : S1024x1024.Idx → EReal) := by
    dsimp only [Gen.V, Gen.hostOps0]; after_results
  rw [e]
  show transpose S1024x1024 [1, 0] (m ((c : Thread nD τ).loc main_arg1)) transposes_S1024x1024_S1024x1024_1_0 (ix2 j d) = _
  exact transpose_ix2_apply _ _ j d

theorem wk_apply (c : Dev nD) (j d : Fin 1024) : V m c main_v3 (ix2 j d) = m ((c : Thread nD τ).loc main_arg3) (ix2 d j) := by
  have e : (V m c main_v3 : S1024x1024.Idx → EReal)
      = (truncf (F := Ideal) .bf16 (transpose S1024x1024 [1, 0] (m ((c : Thread nD τ).loc main_arg3)) transposes_S1024x1024_S1024x1024_1_0 : FVec Ideal S1024x1024 .f32) bitsLt_bf16_f32 : S1024x1024.Idx → EReal) := by
    dsimp only [Gen.V, Gen.hostOps0]; after_results
  rw [e]
  show transpose S1024x1024 [1, 0] (m ((c : Thread nD τ).loc main_arg3)) transposes_S1024x1024_S1024x1024_1_0 (ix2 j d) = _
  exact transpose_ix2_apply _ _ j d

theorem wv_apply (c : Dev nD) (j d : Fin 1024) : V m c main_v5 (ix2 j d) = m ((c : Thread nD τ).loc main_arg5) (ix2 d j) := by
  have e : (V m c main_v5 : S1024x1024.Idx → EReal)
      = (truncf (F := Ideal) .bf16 (transpose S1024x1024 [1, 0] (m ((c : Thread nD τ).loc main_arg5)) transposes_S1024x1024_S1024x1024_1_0 : FVec Ideal S1024x1024 .f32) bitsLt_bf16_f32 : S1024x1024.Idx → EReal) := by
    dsimp only [Gen.V, Gen.hostOps0]; after_results
  rw [e]
  show transpose S1024x1024 [1, 0] (m ((c : Thread nD τ).loc main_arg5)) transposes_S1024x1024_S1024x1024_1_0 (ix2 j d) = _
  exact transpose_ix2_apply _ _ j d

theorem bq_apply (c : Dev nD) (u : Fin 1) (d : Fin 1024) : V m c main_v6 (ix2 u d) = m ((c : Thread nD τ).loc main_arg2) (ix1 d) := by
  have e : (V m c main_v6 : S1x1024.Idx → EReal) = shapeCast S1x1024 (m ((c : Thread nD τ).loc main_arg2)) shapeCasts_S1024_S1x1024 := by
    dsimp only [Gen.V, Gen.hostOps0]; after_results; rfl
  rw [e]
  exact shapeCast_a_1a_apply _ _ u d

theorem bk_apply (c : Dev nD) (u : Fin 1) (d : Fin 1024) : V m c main_v7 (ix2 u d) = m ((c : Thread nD τ).loc main_arg4) (ix1 d) := by
  have e : (V m c main_v7 : S1x1024.Idx → EReal) = shapeCast S1x1024 (m ((c : Thread nD τ).loc main_arg4)) shapeCasts_S1024_S1x1024 := by
    dsimp only [Gen.V, Gen.hostOps0]; after_results; rfl
  rw [e]
  exact shapeCast_a_1a_apply _ _ u d

theorem bv_apply (c : Dev nD) (u : Fin 1) (d : Fin 1024) : V m c main_v8 (ix2 u d) = m ((c : Thread nD τ).loc main_arg6) (ix1 d) := by
  have e : (V m c main_v8 : S1x1024.Idx → EReal) = shapeCast S1x1024 (m ((c : Thread nD τ).loc main_arg6)) shapeCasts_S1024_S1x1024 := by
    dsimp only [Gen.V, Gen.hostOps0]; after_results; rfl
  rw [e]
  exact shapeCast_a_1a_apply _ _ u d

theorem xbat_apply (c : Dev nD) (b : Fin 4) (u : Fin 1) (r : Fin 2048) (j : Fin 1024) :
    xbat m c b (ix3 u r j) = m ((c : Thread nD τ).loc main_arg0) (ix3 b r j) := by
  unfold xbat
  rw [V_main_arg0]

/-! ## The specification at the arguments, and the reals among them -/

/-- The specification's result for the arrays device `c` was launched with. -/
abbrev spec (c : Dev nD) : Buf (Elt Ideal) ((c : Thread nD τ).loc main_v9) :=
  attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- Every entry of every argument array on device `c` is a real. -/
def RealArgs (c : Dev nD) : Prop :=
  (∀ i, IsReal ((m ((c : Thread nD τ).loc main_arg0)) i)) ∧ (∀ i, IsReal ((m ((c : Thread nD τ).loc main_arg1)) i)) ∧ (∀ i, IsReal ((m ((c : Thread nD τ).loc main_arg2)) i))
    ∧ (∀ i, IsReal ((m ((c : Thread nD τ).loc main_arg3)) i)) ∧ (∀ i, IsReal ((m ((c : Thread nD τ).loc main_arg4)) i)) ∧ (∀ i, IsReal ((m ((c : Thread nD τ).loc main_arg5)) i))
    ∧ (∀ i, IsReal ((m ((c : Thread nD τ).loc main_arg6)) i))

/-! ## A point's block is the specification's block -/

theorem xsize7 : ∀ t : Fin cfg0.N, win0_7.xsize (grid0.coords t) 0 = 1 ∧ win0_7.xsize (grid0.coords t) 1 = 256 ∧ win0_7.xsize (grid0.coords t) 2 = 1024 :=
  (by decide +kernel : ∀ t : Fin grid0.N, win0_7.xsize (grid0.coords t) 0 = 1 ∧ win0_7.xsize (grid0.coords t) 1 = 256 ∧ win0_7.xsize (grid0.coords t) 2 = 1024)

/-- The keys and values of a batch, at an index, are the specification's projections. -/
theorem keysOf_apply (c : Dev nD) (b : Fin 4) (k : Fin 2048) (d : Fin 1024) :
    keysOf m c b (ix2 k d) = proj (m ((c : Thread nD τ).loc main_arg0)) (m ((c : Thread nD τ).loc main_arg3)) (m ((c : Thread nD τ).loc main_arg4)) b k d := by
  unfold keysOf
  rw [keys_apply]
  unfold proj
  refine congrArg₂ (· + ·) (Finset.sum_congr rfl fun j _ => ?_) (bk_apply m c _ d)
  rw [xbat_apply, wk_apply]

theorem valuesOf_apply (c : Dev nD) (b : Fin 4) (k : Fin 2048) (d : Fin 1024) :
    valuesOf m c b (ix2 k d) = proj (m ((c : Thread nD τ).loc main_arg0)) (m ((c : Thread nD τ).loc main_arg5)) (m ((c : Thread nD τ).loc main_arg6)) b k d := by
  unfold valuesOf
  rw [values_eq, keys_apply]
  unfold proj
  refine congrArg₂ (· + ·) (Finset.sum_congr rfl fun j _ => ?_) (bv_apply m c _ d)
  rw [xbat_apply, wv_apply]

/-- The query rows of a point, projected, are the specification's queries at rows 256·(t % 8) + p of its batch. -/
theorem queries_of_point (c : Dev nD) (t : Fin cfg0.N) (p : Fin 256) (d : Fin 1024) (r : Fin 2048)
    (hr : r.val = 256 * (t.val % 8) + p.val) :
    (∑ j : Fin 1024, qrows (grid0.coords t) (xbat m c (batchOf t.val t.isLt)) (ix3 (0 : Fin 1) p j) * V m c main_v1 (ix2 j d))
        + V m c main_v6 (ix2 (0 : Fin 1) d)
      = proj (m ((c : Thread nD τ).loc main_arg0)) (m ((c : Thread nD τ).loc main_arg1)) (m ((c : Thread nD τ).loc main_arg2)) (batchOf t.val t.isLt) r d := by
  obtain ⟨o0, o1, o2⟩ := qoff t
  unfold proj
  rw [bq_apply]
  refine congrArg (· + _) (Finset.sum_congr rfl fun j _ => ?_)
  rw [wq_apply]
  refine congrArg (· * _) ?_
  show xbat m c (batchOf t.val t.isLt) ((Rect.unit (s := S1x2048x1024) (k0_off1 (grid0.coords t)) S1x256x1024.size (k0_off1_inb (grid0.coords t))).idx (ix3 (0 : Fin 1) p j)) = _
  unfold xbat
  rw [V_main_arg0]
  refine congrArg _ (funext fun a => Fin.ext ?_)
  match a with
  | ⟨0, _⟩ => rfl
  | ⟨1, _⟩ => show k0_off1 (grid0.coords t) 1 + 1 * p.val = r.val; rw [o1, hr]; omega
  | ⟨2, _⟩ => show k0_off1 (grid0.coords t) 2 + 1 * j.val = j.val; rw [o2]; omega

/-- WHAT POINT `t` WRITES BACK is its block of the specification's result, when the arguments are reals. -/
theorem flushed_eq (c : Dev nD) (hR : RealArgs m c) (t : Fin cfg0.N) :
    (dats m 0 c).flushed 7 t = ((cfg0.win 7).blk t).view.read (Elt Ideal) (spec m c) := by
  obtain ⟨hx, hwq, hbq, hwk, hbk, hwv, hbv⟩ := hR
  obtain ⟨i0, i1, i2⟩ := index7 t
  have hN : t.val < 32 := lt_of_lt_of_eq t.isLt N_0
  funext y
  have hy0 : (y 0).val < 1 := (y 0).isLt
  have hy1 : (y 1).val < 256 := (y 1).isLt
  have hy2 : (y 2).val < 1024 := (y 2).isLt
  let u : Fin 1 := ⟨(y 0).val, hy0⟩
  let p : Fin 256 := ⟨(y 1).val, hy1⟩
  let e : Fin 1024 := ⟨(y 2).val, hy2⟩
  let r : Fin 2048 := ⟨256 * (t.val % 8) + (y 1).val, by omega⟩
  rw [Cert.KernelIdeal.Value.flushed7, out_eq, View.read_apply]
  have hemb : ((cfg0.win 7).blk t).view.emb y = (ix3 (batchOf t.val t.isLt) r e : S4x2048x1024.Idx) := by
    funext a
    apply Fin.ext
    match a with
    | ⟨0, _⟩ => show win0_7.index t 0 * 1 + 1 * (y 0).val = t.val / 8; rw [i0]; omega
    | ⟨1, _⟩ => show win0_7.index t 1 * 256 + 1 * (y 1).val = 256 * (t.val % 8) + (y 1).val; rw [i1]; omega
    | ⟨2, _⟩ => show win0_7.index t 2 * 1024 + 1 * (y 2).val = (y 2).val; rw [i2]; omega
  have hxin : (cfg0.win 7).xinj (grid0.coords t) y = (ix3 u p e : S1x256x1024.Idx) :=
    funext fun a => Fin.ext (by match a with | ⟨0, _⟩ => rfl | ⟨1, _⟩ => rfl | ⟨2, _⟩ => rfl)
  show outBlock (grid0.coords t) (xbat m c (batchOf t.val t.isLt)) (V m c main_v1) (V m c main_v6)
      (keysOf m c (batchOf t.val t.isLt)) (valuesOf m c (batchOf t.val t.isLt)) ((cfg0.win 7).xinj (grid0.coords t) y)
    = spec m c (((cfg0.win 7).blk t).view.emb y)
  rw [hxin, hemb]
  refine (block_attn _ _ _ _ _
    (fun p' d => proj (m ((c : Thread nD τ).loc main_arg0)) (m ((c : Thread nD τ).loc main_arg1)) (m ((c : Thread nD τ).loc main_arg2)) (batchOf t.val t.isLt) ⟨256 * (t.val % 8) + p'.val, by have := p'.isLt; omega⟩ d)
    (fun k d => proj (m ((c : Thread nD τ).loc main_arg0)) (m ((c : Thread nD τ).loc main_arg3)) (m ((c : Thread nD τ).loc main_arg4)) (batchOf t.val t.isLt) k d)
    (fun k d => proj (m ((c : Thread nD τ).loc main_arg0)) (m ((c : Thread nD τ).loc main_arg5)) (m ((c : Thread nD τ).loc main_arg6)) (batchOf t.val t.isLt) k d)
    (fun p' d => queries_of_point m c t p' d _ rfl) (fun k d => keysOf_apply m c _ k d) (fun k d => valuesOf_apply m c _ k d)
    (fun p' d => isReal_proj hx hwq hbq _ _ d) (fun k d => isReal_proj hx hwk hbk _ k d) u p e).trans ?_
  rfl

/-! ## The blocks tile the array -/

theorem covered (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0 : Nat) < 4 := (i 0).isLt
  have h1 : (i 1 : Nat) < 2048 := (i 1).isLt
  have h2 : (i 2 : Nat) < 1024 := (i 2).isLt
  have hN : cfg0.N = 32 := N_0
  let t : Fin cfg0.N := ⟨8 * (i 0 : Nat) + (i 1 : Nat) / 256, by rw [hN]; omega⟩
  have ht : t.val = 8 * (i 0 : Nat) + (i 1 : Nat) / 256 := rfl
  obtain ⟨i0, i1, i2⟩ := index7 t
  obtain ⟨s0, s1, s2⟩ := xsize7 t
  refine ⟨t, flush0_7 t, ?_⟩
  show i ∈ ((View.whole main_v9).slice (win0_7.rect t)).set
  rw [View.set_slice_whole, Rect.mem_set_unit]
  intro a
  match a with
  | ⟨0, _⟩ =>
    show win0_7.index t 0 * 1 ≤ (i 0 : Nat) ∧ (i 0 : Nat) < win0_7.index t 0 * 1 + win0_7.xsize (grid0.coords t) 0
    rw [i0, s0, ht]; omega
  | ⟨1, _⟩ =>
    show win0_7.index t 1 * 256 ≤ (i 1 : Nat) ∧ (i 1 : Nat) < win0_7.index t 1 * 256 + win0_7.xsize (grid0.coords t) 1
    rw [i1, s1, ht]; omega
  | ⟨2, _⟩ =>
    show win0_7.index t 2 * 1024 ≤ (i 2 : Nat) ∧ (i 2 : Nat) < win0_7.index t 2 * 1024 + win0_7.xsize (grid0.coords t) 2
    rw [i2, s2]; omega

/-- So the result array ends at the specification. -/
theorem final (c : Dev nD) (hR : RealArgs m c) : (dats m 0 c).arrAt 7 cfg0.N = spec m c :=
  (dats m 0 c).arrAt_eq_of_cover 7 (spec m c) (fun t _ => flushed_eq m c hR t) (covered c)

/-- The run, read: every weakly fair execution ends with the result array at the specification of the arguments it was
    launched with, the arguments unchanged — on the devices whose arguments are reals. -/
theorem run (hR : ∀ c, RealArgs m c) : θ_run defs (onTc (τ := τ) (main (F := Ideal))) ⟨m, fun _ => 0, ρ⟩ fun r => ∀ c : Dev nD,
      r.2.mem ((c : Thread nD τ).loc main_v9) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hR c)), (h c).2⟩)
    (Cert.KernelIdeal.Value.run_blocks m ρ)

end Cert.KernelIdeal.AttnValue

end
-- ==== Proof.LibLastAxisMax.lean ====
/-
  A maximum along the last axis of a rank-3 array, read at an index, on the extended reals (general: any extents).

  * `hostLastAxisMax_apply`: the host's reduce with a maximum body along the last axis of an [a, b, c] array, read
    at `(i, j)`, is the fold of `max` from the initial value over the entries `(i, j, ·)`.
-/
import Idealize.ShloMosaic.PureOps.Ideal.Laws
import Idealize.ShloMosaic.Lib.ValueIdx

noncomputable section

open scoped BigOperators

open Idealize.ShloMosaic Idealize.ShloMosaic.ValueIdx

namespace Cert.LastAxisMax

/-- The reduced index `(i, j)` of an [a, b, c] array reduced along its last axis, with position `k` put back, is
    `(i, j, k)`. -/
theorem lift_last {a b c : Nat} (h : (⟨3, ![a, b, c]⟩ : Shape).Reduces [2] ⟨2, ![a, b]⟩) (i : Fin a) (j : Fin b) (k : Fin c) :
    h.lift (ix2 i j) k = ix3 i j k := by
  funext d; apply Fin.ext
  match d with
  | ⟨0, _⟩ => rfl
  | ⟨1, _⟩ => rfl
  | ⟨2, _⟩ => rfl

/-- The host's reduce with a maximum body along the last axis of an `a × b × c` array, read at `(i, j)`: the fold of
    `max`, from the initial value, over the entries `(i, j, k)`. -/
theorem hostLastAxisMax_apply {a b c : Nat} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce FloatOps.maximumf x init h' hu (ix2 i j)
      = (Finset.univ : Finset (Fin c)).fold max (init (Shape.Idx.first hu)) (fun k => x (ix3 i j k)) := by
  rw [Host.reduce_eq_fold_single FloatOps.maximumf x init h' h hu]
  show (Finset.univ : Finset (Fin c)).fold max (init (Shape.Idx.first hu)) (fun k => x (h.lift (ix2 i j) k)) = _
  refine congrArg (fun f => Finset.fold max (init (Shape.Idx.first hu)) f (Finset.univ : Finset (Fin c))) ?_
  funext k
  exact congrArg x (lift_last h i j k)

end Cert.LastAxisMax

end
-- ==== Proof.RefValue.lean ====
/-
  The reference program's result, read at an index, is single-head attention over the extended reals.

  The reference computes, operation by operation: three linear layers (a contraction with a weight matrix plus a
  broadcast bias), the scores as a batched contraction of the first two divided by the square root of 1024, the
  row maximum (a maximum folded from the least element along the last axis), the exponentials of the scores less that
  maximum, their row sums (a sum started at zero), the quotients, and a batched contraction of the quotients with the
  third layer. Read at an index (b, r, e), every step is an identity on the extended reals:
    * a layout operation only renames positions, and the composed renamings are the coordinates themselves;
    * the quotient by the square root of 1024 is the product with 1/32;
    * a maximum folded from the least element over a row is the row's supremum, and a maximum with the least element
      is the other operand;
    * a sum started at zero is the sum.
  No entry needs to be finite.
-/
import proofs.«144892_j74096775790730_2_alg».proof.Proof.Gen.ReferenceIdeal.Read
import proofs.«144892_j74096775790730_2_alg».proof.Proof.Spec
import proofs.«144892_j74096775790730_2_alg».proof.Proof.LibLastAxisMax
import Idealize.ShloMosaic.Lib.ValueIdx
import Idealize.ShloMosaic.PureOps.Ideal.Laws

noncomputable section

open scoped BigOperators

namespace Cert.Attn.Ref

open Idealize.ShloMosaic Idealize.ShloMosaic.ValueIdx Cert.ReferenceIdeal Cert.ReferenceIdeal.Gen
  Cert.ReferenceIdeal.Read Cert.NormExp

/-- The three kinds of argument array, as the reference's stages take them. -/
abbrev ActT : Type := (⟨S4x2048x1024, .f32⟩ : BufTy).Contents (Elt Ideal)
abbrev WgtT : Type := (⟨S1024x1024, .f32⟩ : BufTy).Contents (Elt Ideal)
abbrev BiasT : Type := (⟨S1024, .f32⟩ : BufTy).Contents (Elt Ideal)

/-! ## The three linear layers -/

/-- The first layer at (b, r, d): row (b, r) of the activations against row d of the weights, plus the bias at d. -/
theorem v3_eq (x0 : ActT) (x1 : WgtT) (x2 : BiasT) (b : Fin 4) (r : Fin 2048) (d : Fin 1024) :
    val_main_v3 (F := Ideal) x0 x1 x2 (ix3 b r d) = Cert.Attn.proj x0 x1 x2 b r d := by
  rw [val_main_v3_apply, val_main_v0_apply, val_main_v2_apply, val_main_v1_apply, Ideal.addf_def]
  unfold Cert.Attn.proj
  refine congrArg₂ (· + ·) (Finset.sum_congr rfl fun j _ => congrArg₂ (· * ·) (congrArg x0 ?_) (congrArg x1 ?_)) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The second layer likewise. -/
theorem v7_eq (x0 : ActT) (x3 : WgtT) (x4 : BiasT) (b : Fin 4) (r : Fin 2048) (d : Fin 1024) :
    val_main_v7 (F := Ideal) x0 x3 x4 (ix3 b r d) = Cert.Attn.proj x0 x3 x4 b r d := by
  rw [val_main_v7_apply, val_main_v4_apply, val_main_v6_apply, val_main_v5_apply, Ideal.addf_def]
  unfold Cert.Attn.proj
  refine congrArg₂ (· + ·) (Finset.sum_congr rfl fun j _ => congrArg₂ (· * ·) (congrArg x0 ?_) (congrArg x3 ?_)) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The third layer likewise. -/
theorem v11_eq (x0 : ActT) (x5 : WgtT) (x6 : BiasT) (b : Fin 4) (r : Fin 2048) (d : Fin 1024) :
    val_main_v11 (F := Ideal) x0 x5 x6 (ix3 b r d) = Cert.Attn.proj x0 x5 x6 b r d := by
  rw [val_main_v11_apply, val_main_v8_apply, val_main_v10_apply, val_main_v9_apply, Ideal.addf_def]
  unfold Cert.Attn.proj
  refine congrArg₂ (· + ·) (Finset.sum_congr rfl fun j _ => congrArg₂ (· * ·) (congrArg x0 ?_) (congrArg x5 ?_)) (congrArg x6 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-! ## The scores -/

/-- The scaled score of query row r against key row k: the contraction of the first two layers over the feature axis,
    divided by the square root of 1024, which is the product with 1/32. -/
theorem v15_eq (x0 : ActT) (x1 : WgtT) (x2 : BiasT) (x3 : WgtT) (x4 : BiasT) (b : Fin 4) (r k : Fin 2048) :
    val_main_v15 (F := Ideal) x0 x1 x2 x3 x4 (ix3 b r k) = Cert.Attn.score x0 x1 x2 x3 x4 b r k := by
  rw [val_main_v15_apply, val_main_v12_apply, val_main_v14_apply, val_main_v13_apply, val_main_cst_apply,
    Ideal.hostDivf_def, Ideal.hostUnary_sqrt_def, Ideal.ofBits_def, Cert.Attn.div_sqrt_1024]
  unfold Cert.Attn.score
  refine congrArg (· * Cert.Attn.scale) (Finset.sum_congr rfl fun d _ => ?_)
  have el : lidx_main_v12 (ix3 b r k) d = ix3 b r d :=
    funext fun a => Fin.ext (by match a with | ⟨0, _⟩ => rfl | ⟨1, _⟩ => rfl | ⟨2, _⟩ => rfl)
  have er : ridx_main_v12 (ix3 b r k) d = ix3 b k d :=
    funext fun a => Fin.ext (by match a with | ⟨0, _⟩ => rfl | ⟨1, _⟩ => rfl | ⟨2, _⟩ => rfl)
  rw [el, er, v3_eq, v7_eq]

/-! ## The row maximum -/

/-- The maximum along the last axis, folded from the least element, then taken once more with the least element: the
    supremum of the row of scores. -/
theorem v18_eq (x0 : ActT) (x1 : WgtT) (x2 : BiasT) (x3 : WgtT) (x4 : BiasT) (b : Fin 4) (r : Fin 2048) :
    val_main_v18 (F := Ideal) x0 x1 x2 x3 x4 (ix2 b r) = ⨆ k, Cert.Attn.score x0 x1 x2 x3 x4 b r k := by
  rw [val_main_v18_apply, val_main_v17_apply, val_main_cst_1_apply, Ideal.maximumf_def, Ideal.ofBits_def,
    ofBits_negInf_f32, bot_sup_eq]
  unfold val_main_v16
  rw [Cert.LastAxisMax.hostLastAxisMax_apply (val_main_v15 (F := Ideal) x0 x1 x2 x3 x4) (val_main_cst_0 (F := Ideal))
    reducesTo_S4x2048x2048_S4x2048_d2 (by decide) h_S_ b r, val_main_cst_0_apply, Ideal.ofBits_def, ofBits_negInf_f32,
    fold_max_bot]
  exact congrArg iSup (funext fun k => v15_eq x0 x1 x2 x3 x4 b r k)

/-! ## The normalised exponentials -/

/-- The exponential of a score less its row's supremum. -/
theorem v22_eq (x0 : ActT) (x1 : WgtT) (x2 : BiasT) (x3 : WgtT) (x4 : BiasT) (b : Fin 4) (r k : Fin 2048) :
    val_main_v22 (F := Ideal) x0 x1 x2 x3 x4 (ix3 b r k)
      = Ideal.exp (Cert.Attn.score x0 x1 x2 x3 x4 b r k - ⨆ k', Cert.Attn.score x0 x1 x2 x3 x4 b r k') := by
  have e : idx_main_v19 (idx_main_v20 (ix3 b r k)) = ix2 b r :=
    funext fun a => Fin.ext (by match a with | ⟨0, _⟩ => rfl | ⟨1, _⟩ => rfl)
  rw [val_main_v22_apply, val_main_v21_apply, val_main_v20_apply, val_main_v19_apply, e, v18_eq, v15_eq,
    Ideal.hostUnary_exp_def, Ideal.subf_def]

/-- The row sum of those exponentials: a sum started at zero. -/
theorem v23_eq (x0 : ActT) (x1 : WgtT) (x2 : BiasT) (x3 : WgtT) (x4 : BiasT) (b : Fin 4) (r : Fin 2048) :
    val_main_v23 (F := Ideal) x0 x1 x2 x3 x4 (ix2 b r)
      = ∑ k, Ideal.exp (Cert.Attn.score x0 x1 x2 x3 x4 b r k - ⨆ k', Cert.Attn.score x0 x1 x2 x3 x4 b r k') := by
  rw [val_main_v23_apply, val_main_cst_2_apply, Ideal.ofBits_def, Ideal.ofBits_zero_f32, zero_add]
  refine Finset.sum_congr rfl fun k _ => ?_
  have e : idx_main_v23 (ix2 b r) k = ix3 b r k :=
    funext fun a => Fin.ext (by match a with | ⟨0, _⟩ => rfl | ⟨1, _⟩ => rfl | ⟨2, _⟩ => rfl)
  rw [e, v22_eq]

/-- The quotient: the normalised exponential of the row of scores at k. -/
theorem v26_eq (x0 : ActT) (x1 : WgtT) (x2 : BiasT) (x3 : WgtT) (x4 : BiasT) (b : Fin 4) (r k : Fin 2048) :
    val_main_v26 (F := Ideal) x0 x1 x2 x3 x4 (ix3 b r k)
      = normExp (fun k' => Cert.Attn.score x0 x1 x2 x3 x4 b r k') k := by
  have e : idx_main_v24 (idx_main_v25 (ix3 b r k)) = ix2 b r :=
    funext fun a => Fin.ext (by match a with | ⟨0, _⟩ => rfl | ⟨1, _⟩ => rfl)
  rw [val_main_v26_apply, val_main_v25_apply, val_main_v24_apply, e, v23_eq, v22_eq, Ideal.hostDivf_def]
  rfl

/-! ## The result -/

/-- The reference's result is the attention of its seven arguments. -/
theorem ref_eq (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    Cert.ReferenceIdeal.Read.val_main_v27 (F := Ideal) x0 x1 x2 x3 x4 x5 x6 = Cert.Attn.attn x0 x1 x2 x3 x4 x5 x6 := by
  funext i
  obtain ⟨b, r, e, rfl⟩ : ∃ b r e, i = ValueIdx.ix3 b r e := ⟨i 0, i 1, i 2, ValueIdx.eq_ix3 i⟩
  rw [val_main_v27_apply]
  unfold Cert.Attn.attn
  refine Finset.sum_congr rfl fun k _ => ?_
  have el : lidx_main_v27 (ix3 b r e) k = ix3 b r k :=
    funext fun a => Fin.ext (by match a with | ⟨0, _⟩ => rfl | ⟨1, _⟩ => rfl | ⟨2, _⟩ => rfl)
  have er : ridx_main_v27 (ix3 b r e) k = ix3 b k e :=
    funext fun a => Fin.ext (by match a with | ⟨0, _⟩ => rfl | ⟨1, _⟩ => rfl | ⟨2, _⟩ => rfl)
  rw [el, er, v26_eq, v11_eq]

end Cert.Attn.Ref

end
-- ==== Proof.FiniteInputs.lean ====
/-
  The finiteness precondition, read back.

  The precondition computes, for each of the seven argument arrays, the conjunction over all entries of |x| < +∞, and
  the conjunction of the seven results, as one bit. When that bit is 1 every one of the seven conjuncts is 1, so every
  entry x of every array has max x (-x) < ⊤ on the extended reals. Neither ⊥ nor ⊤ satisfies that (their absolute
  value is ⊤), so every entry is the image of a real number.
-/
import proofs.«144892_j74096775790730_2_alg».proof.Proof.Gen.Pre_finite_inputs
import proofs.«144892_j74096775790730_2_alg».proof.Proof.LibIsReal
import Idealize.ShloMosaic.Lib.ReduceAll
import Idealize.ShloMosaic.PureOps.Ideal

noncomputable section

namespace Cert.Attn.Finite

open Idealize.ShloMosaic Cert.Pre_finite_inputs Cert.LibIsReal

/-- The shape of rank 0 has one index. -/
instance subsingleton_S_ : Subsingleton S_.Idx := ⟨fun a b => funext fun d => d.elim0⟩

/-- The f32 pattern 0x7F800000 denotes +∞. -/
theorem f32_inf : Ideal.ofBits .f32 0x7F800000#32 = (⊤ : EReal) := by simp [Ideal.ofBits, Ideal.ieee]

/-- An extended real whose absolute value max x (-x) is below ⊤ is a real: at ⊥ and at ⊤ the maximum is ⊤. -/
theorem isReal_of_abs_lt_top (x : EReal) (h : max x (-x) < (⊤ : EReal)) : IsReal x := by
  induction x using EReal.rec with
  | bot => exact absurd h (by simp)
  | coe r => exact ⟨r, rfl⟩
  | top => exact absurd h (by simp)

/-- The comparison bit of x < y is 1 exactly when x < y. -/
theorem cmp_olt_eq_one (x y : EReal) : Ideal.cmp .olt x y = 1#1 ↔ x < y := by
  unfold Ideal.cmp
  by_cases hxy : x < y <;> simp [hxy]

/-- One entry: the bit of |x| < +∞ being 1 makes x a real. -/
theorem isReal_of_bit (x : Ideal .f32)
    (h : FloatOps.cmpf (F := Ideal) .olt (FloatOps.hostAbsf x) (FloatOps.ofBits .f32 0x7F800000#32) = 1#1) : IsReal x := by
  have h' : Ideal.cmp .olt (max x (-x)) (Ideal.ofBits .f32 0x7F800000#32) = 1#1 := h
  rw [f32_inf, cmp_olt_eq_one] at h'
  exact isReal_of_abs_lt_top x h'

/-- One array: when the conjunction over all entries of |x| < +∞ is 1, every entry is a real. -/
theorem all_real {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf a) (broadcastInDim s ![] hb (constant (F := Ideal) S_ .f32 0x7F800000#32)))
          (constantI S_ 1 1#1) hr hu j = 1#1) (i : s.Idx) : IsReal (a i) :=
  isReal_of_bit (a i) (Host.reduce_andi_all _ _ hr hu j e i)

/-- The precondition's bit being 1 makes every entry of every argument array a real. -/
theorem real_of_pre (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have e := congrFun h (fun d => d.elim0)
  dsimp only [Cert.Pre_finite_inputs.fn, Cert.Pre_finite_inputs.fn_part1, andi] at e
  simp only [IntOp.andi_eq_one] at e
  obtain ⟨⟨⟨⟨⟨⟨e0, e1⟩, e2⟩, e3⟩, e4⟩, e5⟩, e6⟩ := e
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6⟩

end Cert.Attn.Finite

end
-- ==== Proof.lean ====
/-
  A fused single-head attention kernel against its plain reference, on the extended reals.

  The kernel runs a 4 × 8 grid (batch, query tile).  At the first tile of a batch it projects the batch's 2048 rows to
  keys and values and keeps them in two scratch matrices; at every tile it projects its 256 query rows, scales them by
  1/32, takes their inner products with the keys, normalises each row of exponentials by multiplying with the reciprocal
  of the row's sum, and mixes the value rows.  The reference projects everything at once, divides the scores by √1024,
  and normalises by dividing.

  * The frames of the two kernel programs are the generated ones; the reference's is its generated run with the
    result dropped.  The idealisation rewrote nothing.
  * Values.  Both sides are the same function `attn` of the seven argument arrays (Spec.lean): the reference index by
    index with no hypothesis (RefValue.lean); the kernel block by block (Pieces, Blocks, BlockMath, BlockAttn,
    KernelValue), where two steps need the entries to be real numbers — taking the factor 1/32 out of an inner
    product, and a product with a reciprocal being a quotient (the sum of exponentials must not vanish) — which is
    what the finiteness precondition provides (FiniteInputs.lean).
-/
import proofs.«144892_j74096775790730_2_alg».proof.Defs
import proofs.«144892_j74096775790730_2_alg».proof.Proof.Gen.Kernel
import proofs.«144892_j74096775790730_2_alg».proof.Proof.Gen.Kernel.Skeleton
import proofs.«144892_j74096775790730_2_alg».proof.Proof.Gen.Kernel.Launch
import proofs.«144892_j74096775790730_2_alg».proof.Proof.Gen.Kernel.Points
import proofs.«144892_j74096775790730_2_alg».proof.Proof.Gen.Kernel.Frame
import proofs.«144892_j74096775790730_2_alg».proof.Proof.Gen.KernelIdeal
import proofs.«144892_j74096775790730_2_alg».proof.Proof.Gen.KernelIdeal.Skeleton
import proofs.«144892_j74096775790730_2_alg».proof.Proof.Gen.KernelIdeal.Launch
import proofs.«144892_j74096775790730_2_alg».proof.Proof.Gen.KernelIdeal.Points
import proofs.«144892_j74096775790730_2_alg».proof.Proof.Gen.KernelIdeal.Frame
import proofs.«144892_j74096775790730_2_alg».proof.Proof.Gen.ReferenceIdeal
import proofs.«144892_j74096775790730_2_alg».proof.Proof.Gen.Pre_finite_inputs
import proofs.«144892_j74096775790730_2_alg».proof.Proof.Gen.KernelIdeal.Value
import proofs.«144892_j74096775790730_2_alg».proof.Proof.Gen.ReferenceIdeal.Run
import proofs.«144892_j74096775790730_2_alg».proof.Proof.Gen.ReferenceIdeal.Read
import proofs.«144892_j74096775790730_2_alg».proof.Proof.KernelValue
import proofs.«144892_j74096775790730_2_alg».proof.Proof.RefValue
import proofs.«144892_j74096775790730_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the result array at `attn` of the arguments:
    the kernel because finite inputs are reals, the reference unconditionally. -/
theorem algebraic : Cert.algebraic_KernelIdeal_ReferenceIdeal := by
  intro m ρ m' ρ' hpre hagree
  have hR : ∀ c, Cert.KernelIdeal.AttnValue.RealArgs m c := fun c =>
    Cert.Attn.Finite.real_of_pre _ _ _ _ _ _ _ (hpre c)
  refine ⟨fun c => Cert.KernelIdeal.AttnValue.spec m c, Cert.KernelIdeal.AttnValue.run m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.Attn.Ref.ref_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
